-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S2x1048576 : Shape := ⟨2, ![2, 1048576]⟩
abbrev S64x64 : Shape := ⟨2, ![64, 64]⟩
abbrev S64 : Shape := ⟨1, ![64]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S65536x64 .f32) (main_arg1 : IVec S2x1048576 32) (main_arg2 : FVec F S64x64 .f32) (main_arg3 : FVec F S64 .f32) (main_arg4 : FVec F S64x64 .f32) (main_arg5 : FVec F S64 .f32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S65536x64 : Shape := ⟨2, ![65536, 64]⟩
abbrev S2x1048576 : Shape := ⟨2, ![2, 1048576]⟩
abbrev S64x64 : Shape := ⟨2, ![64, 64]⟩
abbrev S64 : Shape := ⟨1, ![64]⟩
abbrev S1x1048576 : Shape := ⟨2, ![1, 1048576]⟩
abbrev S1048576 : Shape := ⟨1, ![1048576]⟩
abbrev S_ : Shape := ⟨0, ![]⟩
abbrev S65536 : Shape := ⟨1, ![65536]⟩
abbrev S1048576x1 : Shape := ⟨2, ![1048576, 1]⟩
abbrev S1048576x64 : Shape := ⟨2, ![1048576, 64]⟩
abbrev S1x64 : Shape := ⟨2, ![1, 64]⟩
abbrev S4096x64 : Shape := ⟨2, ![4096, 64]⟩

abbrev nBuf : Space → Nat
  | .hbm => 65
  | .vmem => 10
  | .smem => 0
  | _ => 0

abbrev bufTy : (tb : Table) → Fin (tcTables nBuf tb) → BufTy
  | .hbm, ⟨0, _⟩ => ⟨S65536x64, .f32⟩
  | .hbm, ⟨1, _⟩ => ⟨S2x1048576, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1048576, .i32⟩
  | .hbm, ⟨7, _⟩ => ⟨S1048576, .i32⟩
  | .hbm, ⟨8, _⟩ => ⟨S1x1048576, .i32⟩
  | .hbm, ⟨9, _⟩ => ⟨S1048576, .i32⟩
  | .hbm, ⟨10, _⟩ => ⟨S_, .f32⟩
  | .hbm, ⟨11, _⟩ => ⟨S1048576, .f32⟩
  | .hbm, ⟨12, _⟩ => ⟨S_, .f32⟩
  | .hbm, ⟨13, _⟩ => ⟨S65536, .f32⟩
  | .hbm, ⟨14, _⟩ => ⟨S1048576x1, .i32⟩
  | .hbm, ⟨15, _⟩ => ⟨S65536, .f32⟩
  | .hbm, ⟨16, _⟩ => ⟨S_, .f32⟩
  | .hbm, ⟨17, _⟩ => ⟨S65536, .f32⟩
  | .hbm, ⟨18, _⟩ => ⟨S65536, .i1⟩
  | .hbm, ⟨19, _⟩ => ⟨S_, .f32⟩
  | .hbm, ⟨20, _⟩ => ⟨S65536, .f32⟩
  | .hbm, ⟨21, _⟩ => ⟨S65536, .f32⟩
  | .hbm, ⟨22, _⟩ => ⟨S65536, .f32⟩
  | .hbm, ⟨23, _⟩ => ⟨S_, .f32⟩
  | .hbm, ⟨24, _⟩ => ⟨S_, .f32⟩
  | .hbm, ⟨25, _⟩ => ⟨S65536, .f32⟩
  | .hbm, ⟨26, _⟩ => ⟨S65536, .f32⟩
  | .hbm, ⟨27, _⟩ => ⟨S_, .i32⟩
  | .hbm, ⟨28, _⟩ => ⟨S1048576, .i32⟩
  | .hbm, ⟨29, _⟩ => ⟨S1048576, .i1⟩
  | .hbm, ⟨30, _⟩ => ⟨S_, .i32⟩
  | .hbm, ⟨31, _⟩ => ⟨S1048576, .i32⟩
  | .hbm, ⟨32, _⟩ => ⟨S1048576, .i32⟩
  | .hbm, ⟨33, _⟩ => ⟨S1048576, .i32⟩
  | .hbm, ⟨34, _⟩ => ⟨S1048576x1, .i32⟩
  | .hbm, ⟨35, _⟩ => ⟨S1048576, .f32⟩
  | .hbm, ⟨36, _⟩ => ⟨S_, .i32⟩
  | .hbm, ⟨37, _⟩ => ⟨S1048576, .i32⟩
  | .hbm, ⟨38, _⟩ => ⟨S1048576, .i1⟩
  | .hbm, ⟨39, _⟩ => ⟨S_, .i32⟩
  | .hbm, ⟨40, _⟩ => ⟨S1048576, .i32⟩
  | .hbm, ⟨41, _⟩ => ⟨S1048576, .i32⟩
  | .hbm, ⟨42, _⟩ => ⟨S1048576, .i32⟩
  | .hbm, ⟨43, _⟩ => ⟨S1048576x1, .i32⟩
  | .hbm, ⟨44, _⟩ => ⟨S1048576, .f32⟩
  | .hbm, ⟨45, _⟩ => ⟨S1048576, .f32⟩
  | .hbm, ⟨46, _⟩ => ⟨S_, .i32⟩
  | .hbm, ⟨47, _⟩ => ⟨S1048576, .i32⟩
  | .hbm, ⟨48, _⟩ => ⟨S1048576, .i1⟩
  | .hbm, ⟨49, _⟩ => ⟨S_, .i32⟩
  | .hbm, ⟨50, _⟩ => ⟨S1048576, .i32⟩
  | .hbm, ⟨51, _⟩ => ⟨S1048576, .i32⟩
  | .hbm, ⟨52, _⟩ => ⟨S1048576, .i32⟩
  | .hbm, ⟨53, _⟩ => ⟨S1048576x1, .i32⟩
  | .hbm, ⟨54, _⟩ => ⟨S1048576x64, .f32⟩
  | .hbm, ⟨55, _⟩ => ⟨S1048576x1, .f32⟩
  | .hbm, ⟨56, _⟩ => ⟨S1048576x64, .f32⟩
  | .hbm, ⟨57, _⟩ => ⟨S1048576x64, .f32⟩
  | .hbm, ⟨58, _⟩ => ⟨S_, .f32⟩
  | .hbm, ⟨59, _⟩ => ⟨S65536x64, .f32⟩
  | .hbm, ⟨60, _⟩ => ⟨S1048576x1, .i32⟩
  | .hbm, ⟨61, _⟩ => ⟨S65536x64, .f32⟩
  | .hbm, ⟨62, _⟩ => ⟨S1x64, .f32⟩
  | .hbm, ⟨63, _⟩ => ⟨S1x64, .f32⟩
  | .hbm, ⟨64, _⟩ => ⟨S65536x64, .f32⟩
  | .local _ .vmem, ⟨0, _⟩ => ⟨S4096x64, .f32⟩
  | .local _ .vmem, ⟨1, _⟩ => ⟨S4096x64, .f32⟩
  | .local _ .vmem, ⟨2, _⟩ => ⟨S4096x64, .f32⟩
  | .local _ .vmem, ⟨3, _⟩ => ⟨S4096x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S4096x64, .f32⟩
  | .local _ .vmem, ⟨9, _⟩ => ⟨S4096x64, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_c_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1048576_S1x1048576_0_0 : S2x1048576.Slices ![0, 0] S1x1048576
  shapeCasts_S1x1048576_S1048576 : S1x1048576.ShapeCasts S1048576
  slices_S2x1048576_S1x1048576_1_0 : S2x1048576.Slices ![1, 0] S1x1048576
  bcast_S_S1048576 : S_.BroadcastsInDim S1048576 (![] : Fin 0 → Fin S1048576.rank)
  bcast_S_S65536 : S_.BroadcastsInDim S65536 (![] : Fin 0 → Fin S65536.rank)
  bcast_S1048576_S1048576x1_0 : S1048576.BroadcastsInDim S1048576x1 (![0] : Fin 1 → Fin S1048576x1.rank)
  bcast_S1048576x1_S1048576x64_0_1 : S1048576x1.BroadcastsInDim S1048576x64 (![0, 1] : Fin 2 → Fin S1048576x64.rank)
  bcast_S_S65536x64 : S_.BroadcastsInDim S65536x64 (![] : Fin 0 → Fin S65536x64.rank)
  shapeCasts_S64_S1x64 : S64.ShapeCasts S1x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  scatter_S65536_S1048576x1_S1048576_n_0_0_1_wf : ScatterDims.WF S65536 S1048576x1 S1048576 [] [0] [0] 1
  gather_S65536_S1048576x1_S1048576_n_0_n_n_0_1_1_wf : GatherDims.WF S65536 S1048576x1 S1048576 [] [0] [] [0] [] 1 ![1]
  gather_S65536x64_S1048576x1_S1048576x64_1_0_n_n_0_1_164_wf : GatherDims.WF S65536x64 S1048576x1 S1048576x64 [1] [0] [] [0] [] 1 ![1, 64]
  scatter_S65536x64_S1048576x1_S1048576x64_1_0_0_1_wf : ScatterDims.WF S65536x64 S1048576x1 S1048576x64 [1] [0] [0] 1
  dot_S4096x64_S64x64_S4096x64_1_0_0_1_n_n_wf : DotDims.WF S4096x64 S64x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S65536x64.size a
  hwx0_0 : ∀ i : grid0.Coords, EltTy.bits .f32 = 32 ∨ (Rect.block (s := S65536x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S65536x64.size a
  hwx0_1 : ∀ i : grid0.Coords, EltTy.bits .f32 = 32 ∨ (Rect.block (s := S65536x64) S4096x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x64.size a ≤ S65536x64.size a
  hwx0_6 : ∀ i : grid0.Coords, EltTy.bits .f32 = 32 ∨ (Rect.block (s := S65536x64) S4096x64.size (cc0_transform_6 i) (hinb0_6 i)).WholeWords (EltTy.packing .f32)

variable [Facts₀]

def scatter_S65536_S1048576x1_S1048576_n_0_0_1 : ScatterDims S65536 S1048576x1 S1048576 where
  updateWindowDims := []
  insertedWindowDims := [0]
  scatterDimsToOperandDims := [0]
  indexVectorDim := 1
  wf := scatter_S65536_S1048576x1_S1048576_n_0_0_1_wf
def gather_S65536_S1048576x1_S1048576_n_0_n_n_0_1_1 : GatherDims S65536 S1048576x1 S1048576 where
  offsetDims := []
  collapsedSliceDims := [0]
  operandBatchingDims := []
  startIndicesBatchingDims := []
  startIndexMap := [0]
  indexVectorDim := 1
  sliceSizes := ![1]
  wf := gather_S65536_S1048576x1_S1048576_n_0_n_n_0_1_1_wf
def gather_S65536x64_S1048576x1_S1048576x64_1_0_n_n_0_1_164 : GatherDims S65536x64 S1048576x1 S1048576x64 where
  offsetDims := [1]
  collapsedSliceDims := [0]
  operandBatchingDims := []
  startIndicesBatchingDims := []
  startIndexMap := [0]
  indexVectorDim := 1
  sliceSizes := ![1, 64]
  wf := gather_S65536x64_S1048576x1_S1048576x64_1_0_n_n_0_1_164_wf
def scatter_S65536x64_S1048576x1_S1048576x64_1_0_0_1 : ScatterDims S65536x64 S1048576x1 S1048576x64 where
  updateWindowDims := [1]
  insertedWindowDims := [0]
  scatterDimsToOperandDims := [0]
  indexVectorDim := 1
  wf := scatter_S65536x64_S1048576x1_S1048576x64_1_0_0_1_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpec (Memref.whole main_v41) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v42) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v43) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v44) S4096x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S65536x64 : Shape := ⟨2, ![65536, 64]⟩
abbrev S2x1048576 : Shape := ⟨2, ![2, 1048576]⟩
abbrev S64x64 : Shape := ⟨2, ![64, 64]⟩
abbrev S64 : Shape := ⟨1, ![64]⟩
abbrev S1x1048576 : Shape := ⟨2, ![1, 1048576]⟩
abbrev S1048576 : Shape := ⟨1, ![1048576]⟩
abbrev S_ : Shape := ⟨0, ![]⟩
abbrev S65536 : Shape := ⟨1, ![65536]⟩
abbrev S1048576x1 : Shape := ⟨2, ![1048576, 1]⟩
abbrev S1048576x64 : Shape := ⟨2, ![1048576, 64]⟩
abbrev S1x64 : Shape := ⟨2, ![1, 64]⟩

abbrev nBuf : Space → Nat
  | .hbm => 86
  | .vmem => 0
  | .smem => 0
  | _ => 0

abbrev bufTy : (tb : Table) → Fin (tcTables nBuf tb) → BufTy
  | .hbm, ⟨0, _⟩ => ⟨S65536x64, .f32⟩
  | .hbm, ⟨1, _⟩ => ⟨S2x1048576, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1048576, .i32⟩
  | .hbm, ⟨7, _⟩ => ⟨S1048576, .i32⟩
  | .hbm, ⟨8, _⟩ => ⟨S1x1048576, .i32⟩
  | .hbm, ⟨9, _⟩ => ⟨S1048576, .i32⟩
  | .hbm, ⟨10, _⟩ => ⟨S_, .f32⟩
  | .hbm, ⟨11, _⟩ => ⟨S1048576, .f32⟩
  | .hbm, ⟨12, _⟩ => ⟨S_, .f32⟩
  | .hbm, ⟨13, _⟩ => ⟨S65536, .f32⟩
  | .hbm, ⟨14, _⟩ => ⟨S1048576x1, .i32⟩
  | .hbm, ⟨15, _⟩ => ⟨S65536, .f32⟩
  | .hbm, ⟨16, _⟩ => ⟨S_, .f32⟩
  | .hbm, ⟨17, _⟩ => ⟨S65536, .f32⟩
  | .hbm, ⟨18, _⟩ => ⟨S65536, .i1⟩
  | .hbm, ⟨19, _⟩ => ⟨S_, .f32⟩
  | .hbm, ⟨20, _⟩ => ⟨S65536, .f32⟩
  | .hbm, ⟨21, _⟩ => ⟨S65536, .f32⟩
  | .hbm, ⟨22, _⟩ => ⟨S65536, .f32⟩
  | .hbm, ⟨23, _⟩ => ⟨S_, .f32⟩
  | .hbm, ⟨24, _⟩ => ⟨S_, .f32⟩
  | .hbm, ⟨25, _⟩ => ⟨S65536, .f32⟩
  | .hbm, ⟨26, _⟩ => ⟨S65536, .f32⟩
  | .hbm, ⟨27, _⟩ => ⟨S_, .i32⟩
  | .hbm, ⟨28, _⟩ => ⟨S1048576, .i32⟩
  | .hbm, ⟨29, _⟩ => ⟨S1048576, .i1⟩
  | .hbm, ⟨30, _⟩ => ⟨S_, .i32⟩
  | .hbm, ⟨31, _⟩ => ⟨S1048576, .i32⟩
  | .hbm, ⟨32, _⟩ => ⟨S1048576, .i32⟩
  | .hbm, ⟨33, _⟩ => ⟨S1048576, .i32⟩
  | .hbm, ⟨34, _⟩ => ⟨S1048576x1, .i32⟩
  | .hbm, ⟨35, _⟩ => ⟨S1048576, .f32⟩
  | .hbm, ⟨36, _⟩ => ⟨S_, .i32⟩
  | .hbm, ⟨37, _⟩ => ⟨S1048576, .i32⟩
  | .hbm, ⟨38, _⟩ => ⟨S1048576, .i1⟩
  | .hbm, ⟨39, _⟩ => ⟨S_, .i32⟩
  | .hbm, ⟨40, _⟩ => ⟨S1048576, .i32⟩
  | .hbm, ⟨41, _⟩ => ⟨S1048576, .i32⟩
  | .hbm, ⟨42, _⟩ => ⟨S1048576, .i32⟩
  | .hbm, ⟨43, _⟩ => ⟨S1048576x1, .i32⟩
  | .hbm, ⟨44, _⟩ => ⟨S1048576, .f32⟩
  | .hbm, ⟨45, _⟩ => ⟨S1048576, .f32⟩
  | .hbm, ⟨46, _⟩ => ⟨S_, .i32⟩
  | .hbm, ⟨47, _⟩ => ⟨S1048576, .i32⟩
  | .hbm, ⟨48, _⟩ => ⟨S1048576, .i1⟩
  | .hbm, ⟨49, _⟩ => ⟨S_, .i32⟩
  | .hbm, ⟨50, _⟩ => ⟨S1048576, .i32⟩
  | .hbm, ⟨51, _⟩ => ⟨S1048576, .i32⟩
  | .hbm, ⟨52, _⟩ => ⟨S1048576, .i32⟩
  | .hbm, ⟨53, _⟩ => ⟨S1048576x1, .i32⟩
  | .hbm, ⟨54, _⟩ => ⟨S1048576x64, .f32⟩
  | .hbm, ⟨55, _⟩ => ⟨S1048576x1, .f32⟩
  | .hbm, ⟨56, _⟩ => ⟨S1048576x64, .f32⟩
  | .hbm, ⟨57, _⟩ => ⟨S1048576x64, .f32⟩
  | .hbm, ⟨58, _⟩ => ⟨S_, .f32⟩
  | .hbm, ⟨59, _⟩ => ⟨S65536x64, .f32⟩
  | .hbm, ⟨60, _⟩ => ⟨S1048576x1, .i32⟩
  | .hbm, ⟨61, _⟩ => ⟨S65536x64, .f32⟩
  | .hbm, ⟨62, _⟩ => ⟨S65536x64, .f32⟩
  | .hbm, ⟨63, _⟩ => ⟨S1x64, .f32⟩
  | .hbm, ⟨64, _⟩ => ⟨S65536x64, .f32⟩
  | .hbm, ⟨65, _⟩ => ⟨S65536x64, .f32⟩
  | .hbm, ⟨66, _⟩ => ⟨S_, .f32⟩
  | .hbm, ⟨67, _⟩ => ⟨S65536x64, .f32⟩
  | .hbm, ⟨68, _⟩ => ⟨S65536x64, .i1⟩
  | .hbm, ⟨69, _⟩ => ⟨S_, .f32⟩
  | .hbm, ⟨70, _⟩ => ⟨S65536x64, .f32⟩
  | .hbm, ⟨71, _⟩ => ⟨S65536x64, .f32⟩
  | .hbm, ⟨72, _⟩ => ⟨S65536x64, .f32⟩
  | .hbm, ⟨73, _⟩ => ⟨S65536x64, .f32⟩
  | .hbm, ⟨74, _⟩ => ⟨S65536x64, .f32⟩
  | .hbm, ⟨75, _⟩ => ⟨S1x64, .f32⟩
  | .hbm, ⟨76, _⟩ => ⟨S65536x64, .f32⟩
  | .hbm, ⟨77, _⟩ => ⟨S65536x64, .f32⟩
  | .hbm, ⟨78, _⟩ => ⟨S_, .f32⟩
  | .hbm, ⟨79, _⟩ => ⟨S65536x64, .f32⟩
  | .hbm, ⟨80, _⟩ => ⟨S65536x64, .i1⟩
  | .hbm, ⟨81, _⟩ => ⟨S_, .f32⟩
  | .hbm, ⟨82, _⟩ => ⟨S65536x64, .f32⟩
  | .hbm, ⟨83, _⟩ => ⟨S65536x64, .f32⟩
  | .hbm, ⟨84, _⟩ => ⟨S65536x64, .f32⟩
  | .hbm, ⟨85, _⟩ => ⟨S65536x64, .f32⟩
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_c_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_v57 : Ref sig .tc := ⟨.hbm, 80, rfl⟩
abbrev main_cst_13 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩

abbrev nD : Nat := 1
abbrev τ : Topo := Topo.v7x

variable {F : FTy → Type} [FloatOps F]

class Facts₀ : Prop where
  slices_S2x1048576_S1x1048576_0_0 : S2x1048576.Slices ![0, 0] S1x1048576
  shapeCasts_S1x1048576_S1048576 : S1x1048576.ShapeCasts S1048576
  slices_S2x1048576_S1x1048576_1_0 : S2x1048576.Slices ![1, 0] S1x1048576
  bcast_S_S1048576 : S_.BroadcastsInDim S1048576 (![] : Fin 0 → Fin S1048576.rank)
  bcast_S_S65536 : S_.BroadcastsInDim S65536 (![] : Fin 0 → Fin S65536.rank)
  bcast_S1048576_S1048576x1_0 : S1048576.BroadcastsInDim S1048576x1 (![0] : Fin 1 → Fin S1048576x1.rank)
  bcast_S1048576x1_S1048576x64_0_1 : S1048576x1.BroadcastsInDim S1048576x64 (![0, 1] : Fin 2 → Fin S1048576x64.rank)
  bcast_S_S65536x64 : S_.BroadcastsInDim S65536x64 (![] : Fin 0 → Fin S65536x64.rank)
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  scatter_S65536_S1048576x1_S1048576_n_0_0_1_wf : ScatterDims.WF S65536 S1048576x1 S1048576 [] [0] [0] 1
  gather_S65536_S1048576x1_S1048576_n_0_n_n_0_1_1_wf : GatherDims.WF S65536 S1048576x1 S1048576 [] [0] [] [0] [] 1 ![1]
  gather_S65536x64_S1048576x1_S1048576x64_1_0_n_n_0_1_164_wf : GatherDims.WF S65536x64 S1048576x1 S1048576x64 [1] [0] [] [0] [] 1 ![1, 64]
  scatter_S65536x64_S1048576x1_S1048576x64_1_0_0_1_wf : ScatterDims.WF S65536x64 S1048576x1 S1048576x64 [1] [0] [0] 1
  dot_S65536x64_S64x64_S65536x64_1_0_0_1_n_n_wf : DotDims.WF S65536x64 S64x64 S65536x64 [1] [0] [0] [1] [] []

variable [Facts₀]

def scatter_S65536_S1048576x1_S1048576_n_0_0_1 : ScatterDims S65536 S1048576x1 S1048576 where
  updateWindowDims := []
  insertedWindowDims := [0]
  scatterDimsToOperandDims := [0]
  indexVectorDim := 1
  wf := scatter_S65536_S1048576x1_S1048576_n_0_0_1_wf
def gather_S65536_S1048576x1_S1048576_n_0_n_n_0_1_1 : GatherDims S65536 S1048576x1 S1048576 where
  offsetDims := []
  collapsedSliceDims := [0]
  operandBatchingDims := []
  startIndicesBatchingDims := []
  startIndexMap := [0]
  indexVectorDim := 1
  sliceSizes := ![1]
  wf := gather_S65536_S1048576x1_S1048576_n_0_n_n_0_1_1_wf
def gather_S65536x64_S1048576x1_S1048576x64_1_0_n_n_0_1_164 : GatherDims S65536x64 S1048576x1 S1048576x64 where
  offsetDims := [1]
  collapsedSliceDims := [0]
  operandBatchingDims := []
  startIndicesBatchingDims := []
  startIndexMap := [0]
  indexVectorDim := 1
  sliceSizes := ![1, 64]
  wf := gather_S65536x64_S1048576x1_S1048576x64_1_0_n_n_0_1_164_wf
def scatter_S65536x64_S1048576x1_S1048576x64_1_0_0_1 : ScatterDims S65536x64 S1048576x1 S1048576x64 where
  updateWindowDims := [1]
  insertedWindowDims := [0]
  scatterDimsToOperandDims := [0]
  indexVectorDim := 1
  wf := scatter_S65536x64_S1048576x1_S1048576x64_1_0_0_1_wf
def dot_S65536x64_S64x64_S65536x64_1_0_0_1_n_n : DotDims S65536x64 S64x64 S65536x64 where
  lhsContracting := [1]
  rhsContracting := [0]
  lhsNonContracting := [0]
  rhsNonContracting := [1]
  lhsBatch := []
  rhsBatch := []
  wf := dot_S65536x64_S64x64_S65536x64_1_0_0_1_n_n_wf

class Facts : Prop extends Facts₀ where

variable [Facts]
-- ==== Proof.GateSpec.lean ====
/-
  The dense part of the layer, as one function of its arrays.

  For a row p of the aggregated features h and the node features x, with two 64×64 weight matrices and two bias
  vectors, entry (p, q) of the result is

      lrelu (Σ_l h(p,l)·W1(l,q) + b1(q))  +  lrelu (Σ_l (x(p,l)·h(p,l))·W2(l,q) + b2(q)),

  where lrelu v is v when v ≥ 0 and 0.2·v otherwise (the comparison and the product on the extended reals, the
  slope the binary value of the f32 literal both programs spell).  Nothing here depends on the number of rows.
-/
import Idealize.ShloMosaic.Lib.ValueIdx
import Idealize.ShloMosaic.PureOps.Ideal

noncomputable section

open scoped BigOperators

namespace Cert.DualGate

open Idealize.ShloMosaic Idealize.ShloMosaic.ValueIdx

/-- The leaky rectifier on the extended reals: the argument where it is at least zero, the slope times it elsewhere. -/
def lrelu (v : EReal) : EReal :=
  Scalar.select (Ideal.cmp .oge v (Ideal.ofBits .f32 0x00000000#32)) v (Ideal.ofBits .f32 0x3E4CCCCD#32 * v)

/-- Entry (p, q) of the gated sum of the two dense transforms. -/
def gate {R : ℕ} (h x : (⟨2, ![R, 64]⟩ : Shape).Idx → EReal) (W1 : (⟨2, ![64, 64]⟩ : Shape).Idx → EReal)
    (b1 : (⟨1, ![64]⟩ : Shape).Idx → EReal) (W2 : (⟨2, ![64, 64]⟩ : Shape).Idx → EReal)
    (b2 : (⟨1, ![64]⟩ : Shape).Idx → EReal) (p : Fin R) (q : Fin 64) : EReal :=
  lrelu ((∑ l : Fin 64, h (ix2 p l) * W1 (ix2 l q)) + b1 (ix1 q))
    + lrelu ((∑ l : Fin 64, (x (ix2 p l) * h (ix2 p l)) * W2 (ix2 l q)) + b2 (ix1 q))

/-- An entry depends only on its row of h and of x, its column of each weight matrix and its entry of each bias:
    two sets of arrays that agree there (possibly of different heights, at different rows) give the same entry. -/
theorem gate_congr {R R' : ℕ} {h x : (⟨2, ![R, 64]⟩ : Shape).Idx → EReal} {h' x' : (⟨2, ![R', 64]⟩ : Shape).Idx → EReal}
    {W1 W1' W2 W2' : (⟨2, ![64, 64]⟩ : Shape).Idx → EReal} {b1 b1' b2 b2' : (⟨1, ![64]⟩ : Shape).Idx → EReal}
    {p : Fin R} {p' : Fin R'} {q q' : Fin 64}
    (hh : ∀ l : Fin 64, h (ix2 p l) = h' (ix2 p' l)) (hx : ∀ l : Fin 64, x (ix2 p l) = x' (ix2 p' l))
    (hW1 : ∀ l : Fin 64, W1 (ix2 l q) = W1' (ix2 l q')) (hW2 : ∀ l : Fin 64, W2 (ix2 l q) = W2' (ix2 l q'))
    (hb1 : b1 (ix1 q) = b1' (ix1 q')) (hb2 : b2 (ix1 q) = b2' (ix1 q')) :
    gate h x W1 b1 W2 b2 p q = gate h' x' W1' b1' W2' b2' p' q' := by
  unfold gate
  simp only [hh, hx, hW1, hW2, hb1, hb2]

/-- The whole [R, 64] array of those entries. -/
def gateArr {R : ℕ} (h x : (⟨2, ![R, 64]⟩ : Shape).Idx → EReal) (W1 : (⟨2, ![64, 64]⟩ : Shape).Idx → EReal)
    (b1 : (⟨1, ![64]⟩ : Shape).Idx → EReal) (W2 : (⟨2, ![64, 64]⟩ : Shape).Idx → EReal)
    (b2 : (⟨1, ![64]⟩ : Shape).Idx → EReal) : (⟨2, ![R, 64]⟩ : Shape).Idx → EReal :=
  fun i => gate h x W1 b1 W2 b2 (i 0) (i 1)

theorem gateArr_ix2 {R : ℕ} (h x : (⟨2, ![R, 64]⟩ : Shape).Idx → EReal) (W1 : (⟨2, ![64, 64]⟩ : Shape).Idx → EReal)
    (b1 : (⟨1, ![64]⟩ : Shape).Idx → EReal) (W2 : (⟨2, ![64, 64]⟩ : Shape).Idx → EReal)
    (b2 : (⟨1, ![64]⟩ : Shape).Idx → EReal) (p : Fin R) (q : Fin 64) :
    gateArr h x W1 b1 W2 b2 (ix2 p q) = gate h x W1 b1 W2 b2 p q := rfl

end Cert.DualGate

end
-- ==== Proof.RefValue.lean ====
/-
  The reference, read at an index, is the gated sum.

  After the aggregation h = val_main_v41 (the neighbour sum both programs compute by the same operations, kept here as
  one unopened function of x and the edge list), the reference multiplies h by W1, adds b1 along the rows, applies the
  leaky rectifier; does the same with x·h, W2, b2; and adds the two.  Entry (p, q) of that array is GateSpec's gate of
  row p of h and of x.
-/
import proofs.«156784_j90890097918587_1_alg».proof.Proof.RefRead
import proofs.«156784_j90890097918587_1_alg».proof.Proof.GateSpec

noncomputable section

open scoped BigOperators

namespace Cert.ReferenceIdeal.DualGate

open Cert.ReferenceIdeal Cert.ReferenceIdeal.Gen Cert.ReferenceIdeal.ReadP Idealize.ShloMosaic Idealize.ShloMosaic.ValueIdx Cert.DualGate

variable (x0 : (⟨S65536x64, .f32⟩ : BufTy).Contents (Elt Ideal)) (x1 : (⟨S2x1048576, .i32⟩ : BufTy).Contents (Elt Ideal))
  (x2 : (⟨S64x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))

set_option maxHeartbeats 400000 in
/-- The first transform before the rectifier, at entry (p, q): row p of h against column q of W1, plus b1 at q. -/
theorem pre1_apply (p : Fin 65536) (q : Fin 64) :
    val_main_v45 (F := Ideal) x0 x1 x2 x3 (ix2 p q)
      = (∑ l : Fin 64, val_main_v41 (F := Ideal) x0 x1 (ix2 p l) * x2 (ix2 l q)) + x3 (ix1 q) := by
  have el : ∀ k : Fin 64, lidx_main_v42 (ix2 p q) k = ix2 p k := fun k =>
    funext fun a => Fin.ext (by match a with | ⟨0, _⟩ => rfl | ⟨1, _⟩ => rfl)
  have er : ∀ k : Fin 64, ridx_main_v42 (ix2 p q) k = ix2 k q := fun k =>
    funext fun a => Fin.ext (by match a with | ⟨0, _⟩ => rfl | ⟨1, _⟩ => rfl)
  have eb : idx_main_v43 (idx_main_v44 (ix2 p q)) = ix1 q :=
    funext fun a => Fin.ext (by match a with | ⟨0, _⟩ => rfl)
  rw [val_main_v45_apply, val_main_v42_apply, val_main_v44_apply, val_main_v43_apply, eb]
  generalize val_main_v41 (F := Ideal) x0 x1 = h
  exact congrArg (· + x3 (ix1 q)) (Finset.sum_congr rfl fun k _ => by rw [el k, er k])

set_option maxHeartbeats 400000 in
/-- The second transform before the rectifier, at entry (p, q): row p of x·h against column q of W2, plus b2 at q. -/
theorem pre2_apply (p : Fin 65536) (q : Fin 64) :
    val_main_v55 (F := Ideal) x0 x1 x4 x5 (ix2 p q)
      = (∑ l : Fin 64, (x0 (ix2 p l) * val_main_v41 (F := Ideal) x0 x1 (ix2 p l)) * x4 (ix2 l q)) + x5 (ix1 q) := by
  have el : ∀ k : Fin 64, lidx_main_v52 (ix2 p q) k = ix2 p k := fun k =>
    funext fun a => Fin.ext (by match a with | ⟨0, _⟩ => rfl | ⟨1, _⟩ => rfl)
  have er : ∀ k : Fin 64, ridx_main_v52 (ix2 p q) k = ix2 k q := fun k =>
    funext fun a => Fin.ext (by match a with | ⟨0, _⟩ => rfl | ⟨1, _⟩ => rfl)
  have eb : idx_main_v53 (idx_main_v54 (ix2 p q)) = ix1 q :=
    funext fun a => Fin.ext (by match a with | ⟨0, _⟩ => rfl)
  rw [val_main_v55_apply, val_main_v52_apply, val_main_v54_apply, val_main_v53_apply, eb]
  refine congrArg (· + x5 (ix1 q)) (Finset.sum_congr rfl fun k _ => ?_)
  rw [el k, er k, val_main_v51_apply]
  generalize val_main_v41 (F := Ideal) x0 x1 = h
  rfl

set_option maxHeartbeats 400000 in
/-- The zero the rectifier compares with, wherever it is read. -/
theorem zero1_apply (i : S65536x64.Idx) : val_main_v46 (F := Ideal) i = Ideal.ofBits .f32 0x00000000#32 := by
  rw [val_main_v46_apply, val_main_cst_10_apply]; rfl
set_option maxHeartbeats 400000 in
theorem zero2_apply (i : S65536x64.Idx) : val_main_v56 (F := Ideal) i = Ideal.ofBits .f32 0x00000000#32 := by
  rw [val_main_v56_apply, val_main_cst_12_apply]; rfl
set_option maxHeartbeats 400000 in
/-- The rectifier's slope, wherever it is read. -/
theorem slope1_apply (i : S65536x64.Idx) : val_main_v48 (F := Ideal) i = Ideal.ofBits .f32 0x3E4CCCCD#32 := by
  rw [val_main_v48_apply, val_main_cst_11_apply]; rfl
set_option maxHeartbeats 400000 in
theorem slope2_apply (i : S65536x64.Idx) : val_main_v58 (F := Ideal) i = Ideal.ofBits .f32 0x3E4CCCCD#32 := by
  rw [val_main_v58_apply, val_main_cst_13_apply]; rfl

set_option maxHeartbeats 400000 in
/-- The first rectified transform at an index: the rectifier of the transform there. -/
theorem act1_apply (i : S65536x64.Idx) :
    val_main_v50 (F := Ideal) x0 x1 x2 x3 i = lrelu (val_main_v45 (F := Ideal) x0 x1 x2 x3 i) := by
  rw [val_main_v50_apply, val_main_v47_apply, val_main_v49_apply, zero1_apply, slope1_apply]
  generalize val_main_v45 (F := Ideal) x0 x1 x2 x3 i = v
  rfl

set_option maxHeartbeats 400000 in
/-- The second rectified transform at an index. -/
theorem act2_apply (i : S65536x64.Idx) :
    val_main_v60 (F := Ideal) x0 x1 x4 x5 i = lrelu (val_main_v55 (F := Ideal) x0 x1 x4 x5 i) := by
  rw [val_main_v60_apply, val_main_v57_apply, val_main_v59_apply, zero2_apply, slope2_apply]
  generalize val_main_v55 (F := Ideal) x0 x1 x4 x5 i = v
  rfl

set_option maxHeartbeats 400000 in
/-- The reference's result at entry (p, q). -/
theorem result_apply (p : Fin 65536) (q : Fin 64) :
    val_main_v61 (F := Ideal) x0 x1 x2 x3 x4 x5 (ix2 p q)
      = gate (R := 65536) (val_main_v41 (F := Ideal) x0 x1) x0 x2 x3 x4 x5 p q := by
  rw [val_main_v61_apply, act1_apply, act2_apply, pre1_apply, pre2_apply]
  generalize val_main_v41 (F := Ideal) x0 x1 = h
  rfl

/-- The reference's result array is the gated sum of h = val_main_v41 and the arguments. -/
theorem result_eq :
    val_main_v61 (F := Ideal) x0 x1 x2 x3 x4 x5
      = gateArr (R := 65536) (val_main_v41 (F := Ideal) x0 x1) x0 x2 x3 x4 x5 := by
  funext i
  obtain ⟨p, q, rfl⟩ : ∃ (p : Fin 65536) (q : Fin 64), i = ix2 p q := ⟨i 0, i 1, eq_ix2 i⟩
  exact result_apply x0 x1 x2 x3 x4 x5 p q

end Cert.ReferenceIdeal.DualGate

end
-- ==== Proof.LibPlainDot.lean ====
/-
  The plain matrix product read at an index.

  For the dimension numbers of an M×K by K×N product (contract the left operand's axis 1 with the right operand's
  axis 0, no batch axes), the sum over the contraction index that both a matmul into a zero accumulator and a
  host dot_general denote at the ideal values is the textbook one: entry (p, q) is the sum over l of
  lhs (p, l) · rhs (l, q).
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : ℕ}

/-- Row coordinate of the left operand's index: the output's row. -/
theorem lhs_row (j : (⟨2, ![M, N]⟩ : Shape).Idx) (k : (DotDims.plain M K N).contr.Idx) :
    ((DotDims.plain M K N).lhsIdx j k 0).val = (j 0).val := by
  unfold DotDims.lhsIdx
  have hb : ¬(0 : Fin 2) ∈ (DotDims.plain M K N).lhsBatch := List.not_mem_nil
  have hn : (0 : Fin 2) ∈ (DotDims.plain M K N).lhsNonContracting := List.mem_singleton.mpr rfl
  rw [dif_neg hb, dif_pos hn]
  rfl

/-- Column coordinate of the left operand's index: the contraction position. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- Row coordinate of the right operand's index: the contraction position. -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- Column coordinate of the right operand's index: the output's column. -/
theorem rhs_col (j : (⟨2, ![M, N]⟩ : Shape).Idx) (k : (DotDims.plain M K N).contr.Idx) :
    ((DotDims.plain M K N).rhsIdx j k 1).val = (j 1).val := by
  unfold DotDims.rhsIdx
  have hb : ¬(1 : Fin 2) ∈ (DotDims.plain M K N).rhsBatch := List.not_mem_nil
  have hn : (1 : Fin 2) ∈ (DotDims.plain M K N).rhsNonContracting := List.mem_singleton.mpr rfl
  rw [dif_neg hb, dif_pos hn]
  rfl

/-- The contraction sum of a plain product at entry (p, q), re-indexed by the one contraction coordinate. -/
theorem contr_sum (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ l : Fin K, lhs (ix2 p l) * rhs (ix2 l q) := by
  rw [← Equiv.sum_comp (contrEquiv1 (DotDims.plain M K N) K rfl rfl).symm]
  refine Finset.sum_congr rfl fun l _ => ?_
  have hl := contrEquiv1_symm_val (DotDims.plain M K N) K rfl rfl l
  have el : (DotDims.plain M K N).lhsIdx (ix2 p q) ((contrEquiv1 (DotDims.plain M K N) K rfl rfl).symm l) = ix2 p l :=
    funext fun a => Fin.ext (by
      match a with
      | ⟨0, _⟩ => exact lhs_row _ _
      | ⟨1, _⟩ => exact (lhs_col _ _).trans hl)
  have er : (DotDims.plain M K N).rhsIdx (ix2 p q) ((contrEquiv1 (DotDims.plain M K N) K rfl rfl).symm l) = ix2 l q :=
    funext fun a => Fin.ext (by
      match a with
      | ⟨0, _⟩ => exact (rhs_row _ _).trans hl
      | ⟨1, _⟩ => exact rhs_col _ _)
  rw [el, er]

/-- A matmul of plain dimension numbers into the zero accumulator, at the ideal values, read at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ l : Fin K, lhs (ix2 p l) * rhs (ix2 l q) :=
  (Ideal.matmul_constant_zero_apply (DotDims.plain M K N) prec lhs rhs (ix2 p q)).trans (contr_sum lhs rhs p q)

/-- A host dot_general of plain dimension numbers, at the ideal values, read at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  (Ideal.dotGeneral_apply (DotDims.plain M K N) prec sched lhs rhs (ix2 p q)).trans (contr_sum lhs rhs p q)

end Cert.LibPlainDot

end
-- ==== Proof.BlockValue.lean ====
/-
  What one grid point computes, entry by entry.

  The kernel's body loads a 4096-row block of h, the same rows of x, both weight matrices and both bias rows, and stores
  one value: the two matrix products into zero accumulators (the roundings to the narrow float format are the identity
  on the extended reals), each plus its bias row repeated down the block, each passed through the leaky rectifier, and
  the two added.  Read at entry (p, q) that value is the gated sum of GateSpec for the block's rows.
-/
import proofs.«156784_j90890097918587_1_alg».proof.Proof.Gen.KernelIdeal.Skeleton
import proofs.«156784_j90890097918587_1_alg».proof.Proof.GateSpec
import proofs.«156784_j90890097918587_1_alg».proof.Proof.LibPlainDot
import Idealize.ShloMosaic.Lib.ValueLayout
import Idealize.ShloMosaic.Lib.Pipeline.Value

noncomputable section

open scoped BigOperators

namespace Cert.KernelIdeal.DualGate

open Cert.KernelIdeal Cert.KernelIdeal.Gen Idealize.ShloMosaic Idealize.ShloMosaic.ValueIdx Cert.DualGate

/-- A [4096,64] by [64,64] product into the zero accumulator, at entry (p, q): the row of the left factor against the
    column of the right one. -/
theorem product_apply {φ₁ φ₂ : FTy} (a : FVec Ideal S4096x64 φ₁) (b : FVec Ideal S64x64 φ₂) (p : Fin 4096) (q : Fin 64) :
    matmul dot_S4096x64_S64x64_S4096x64_1_0_0_1_n_n none a b (constant (F := Ideal) S4096x64 .f32 0x00000000#32) (ix2 p q)
      = ∑ l : Fin 64, a (ix2 p l) * b (ix2 l q) :=
  Cert.LibPlainDot.matmul_zero_apply (M := 4096) (K := 64) (N := 64) none a b p q

/-- A bias row repeated down the block, at entry (p, q): the row's entry q. -/
theorem biasRow_apply (v : FVec Ideal S1x64 .f32) (p : Fin 4096) (q : Fin 64) :
    broadcastTo S4096x64 v broadcasts_S1x64_S4096x64 (ix2 p q) = v (ix2 (0 : Fin 1) q) :=
  broadcastTo_1b_ab_apply v broadcasts_S1x64_S4096x64 p q

/-- THE BODY'S STORED VALUE at entry (p, q): the gated sum over the loaded blocks, the bias rows read along their one row. -/
theorem stored_apply (v0 v2 : Vec Ideal S4096x64 .f32) (v4 v6 : Vec Ideal S64x64 .f32) (v8 v10 : Vec Ideal S1x64 .f32)
    (p : Fin 4096) (q : Fin 64) :
    k0_pay1 (F := Ideal) v0 v2 v4 v6 v8 v10 (ix2 p q)
      = gate (R := 4096) v0 v2 v4 (fun i => v8 (ix2 (0 : Fin 1) (i 0))) v6 (fun i => v10 (ix2 (0 : Fin 1) (i 0))) p q := by
  unfold k0_pay1
  simp only [shapeCast_self]
  exact congrArg₂ (· + ·)
    (congrArg lrelu (congrArg₂ (· + ·) (product_apply _ _ p q) (biasRow_apply _ p q)))
    (congrArg lrelu (congrArg₂ (· + ·) (product_apply _ _ p q) (biasRow_apply _ p q)))

end Cert.KernelIdeal.DualGate

end
-- ==== Proof.BlockReads.lean ====
/-
  Which elements of its array a window's block holds.

  Along the grid's one axis the blocks of h, of x and of the result move down 4096 rows per point, and the blocks of the
  weight matrices and of the bias rows stay where they are (each is its whole array).  So element y of point t's block
  of h or x is the array's element 4096·t rows further down, and an element of a weight or bias block is the array's
  element at the same index.  None of this depends on the values of the floats, and it is stated for any.
-/
import proofs.«156784_j90890097918587_1_alg».proof.Proof.Gen.KernelIdeal.Frame

noncomputable section

namespace Cert.KernelIdeal.DualGate

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The printed index maps over the grid: h, x and the result move down one block of rows per point; the weights and the
    bias rows stay at their one block. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Point t's block of h is rows 4096·t … of the aggregated features. -/
theorem read_h (c : Dev nD) (t : Fin cfg0.N) (y : S4096x64.Idx) (i : S65536x64.Idx)
    (h0 : (i 0).val = t.val * 4096 + (y 0).val) (h1 : (i 1).val = (y 1).val) :
    (iblk m c 0 t : FVec F S4096x64 .f32) y = (V m c main_v41 : FVec F S65536x64 .f32) i := by
  obtain ⟨e0, e1, -⟩ := index_facts t
  have e : ((cfg0.win 0).blk t).view.emb y = i := by
    funext a; apply Fin.ext
    match a with
    | ⟨0, _⟩ => show win0_0.index t (0 : Fin 2) * 4096 + 1 * (y 0).val = (i 0).val; rw [e0, h0]; omega
    | ⟨1, _⟩ => show win0_0.index t (1 : Fin 2) * 64 + 1 * (y 1).val = (i 1).val; rw [e1, h1]; omega
  unfold iblk
  rw [View.read_apply, e]
  rfl

/-- Point t's block of x is the same rows of the node features. -/
theorem read_x (c : Dev nD) (t : Fin cfg0.N) (y : S4096x64.Idx) (i : S65536x64.Idx)
    (h0 : (i 0).val = t.val * 4096 + (y 0).val) (h1 : (i 1).val = (y 1).val) :
    (iblk m c 1 t : FVec F S4096x64 .f32) y = (V m c main_arg0 : FVec F S65536x64 .f32) i := by
  obtain ⟨-, -, e0, e1, -⟩ := index_facts t
  have e : ((cfg0.win 1).blk t).view.emb y = i := by
    funext a; apply Fin.ext
    match a with
    | ⟨0, _⟩ => show win0_1.index t (0 : Fin 2) * 4096 + 1 * (y 0).val = (i 0).val; rw [e0, h0]; omega
    | ⟨1, _⟩ => show win0_1.index t (1 : Fin 2) * 64 + 1 * (y 1).val = (i 1).val; rw [e1, h1]; omega
  unfold iblk
  rw [View.read_apply, e]
  rfl

/-- Every point's block of the first weight matrix is the whole matrix. -/
theorem read_W1 (c : Dev nD) (t : Fin cfg0.N) (y : S64x64.Idx) :
    (iblk m c 2 t : FVec F S64x64 .f32) y = (V m c main_arg2 : FVec F S64x64 .f32) y := by
  obtain ⟨-, -, -, -, e0, e1, -⟩ := index_facts t
  have e : ((cfg0.win 2).blk t).view.emb y = y := by
    funext a; apply Fin.ext
    match a with
    | ⟨0, _⟩ => show win0_2.index t (0 : Fin 2) * 64 + 1 * (y 0).val = (y 0).val; rw [e0]; omega
    | ⟨1, _⟩ => show win0_2.index t (1 : Fin 2) * 64 + 1 * (y 1).val = (y 1).val; rw [e1]; omega
  unfold iblk
  rw [View.read_apply, e]
  rfl

/-- Every point's block of the first bias row is the whole row. -/
theorem read_b1 (c : Dev nD) (t : Fin cfg0.N) (y : S1x64.Idx) :
    (iblk m c 3 t : FVec F S1x64 .f32) y = (V m c main_v42 : FVec F S1x64 .f32) y := by
  obtain ⟨-, -, -, -, -, -, e0, e1, -⟩ := index_facts t
  have e : ((cfg0.win 3).blk t).view.emb y = y := by
    funext a; apply Fin.ext
    match a with
    | ⟨0, _⟩ => show win0_3.index t (0 : Fin 2) * 1 + 1 * (y 0).val = (y 0).val; rw [e0]; omega
    | ⟨1, _⟩ => show win0_3.index t (1 : Fin 2) * 64 + 1 * (y 1).val = (y 1).val; rw [e1]; omega
  unfold iblk
  rw [View.read_apply, e]
  rfl

/-- Every point's block of the second weight matrix is the whole matrix. -/
theorem read_W2 (c : Dev nD) (t : Fin cfg0.N) (y : S64x64.Idx) :
    (iblk m c 4 t : FVec F S64x64 .f32) y = (V m c main_arg4 : FVec F S64x64 .f32) y := by
  obtain ⟨-, -, -, -, -, -, -, -, e0, e1, -⟩ := index_facts t
  have e : ((cfg0.win 4).blk t).view.emb y = y := by
    funext a; apply Fin.ext
    match a with
    | ⟨0, _⟩ => show win0_4.index t (0 : Fin 2) * 64 + 1 * (y 0).val = (y 0).val; rw [e0]; omega
    | ⟨1, _⟩ => show win0_4.index t (1 : Fin 2) * 64 + 1 * (y 1).val = (y 1).val; rw [e1]; omega
  unfold iblk
  rw [View.read_apply, e]
  rfl

/-- Every point's block of the second bias row is the whole row. -/
theorem read_b2 (c : Dev nD) (t : Fin cfg0.N) (y : S1x64.Idx) :
    (iblk m c 5 t : FVec F S1x64 .f32) y = (V m c main_v43 : FVec F S1x64 .f32) y := by
  obtain ⟨-, -, -, -, -, -, -, -, -, -, e0, e1, -⟩ := index_facts t
  have e : ((cfg0.win 5).blk t).view.emb y = y := by
    funext a; apply Fin.ext
    match a with
    | ⟨0, _⟩ => show win0_5.index t (0 : Fin 2) * 1 + 1 * (y 0).val = (y 0).val; rw [e0]; omega
    | ⟨1, _⟩ => show win0_5.index t (1 : Fin 2) * 64 + 1 * (y 1).val = (y 1).val; rw [e1]; omega
  unfold iblk
  rw [View.read_apply, e]
  rfl

end Cert.KernelIdeal.DualGate

end
-- ==== Proof.FinalArray.lean ====
/-
  From the sixteen blocks to the whole result array.

  Grid point t reads rows 4096·t … 4096·t + 4095 of h and of x, all of both weight matrices and of both bias rows, and
  writes the same rows of the result.  What it writes is the body's stored value of those blocks (BlockValue), which is
  the gated sum of the whole arrays read at those rows; the sixteen row blocks fill the array, so the array ends as the
  gated sum of h, x, the weights and the bias rows as the region finds them.
-/
import proofs.«156784_j90890097918587_1_alg».proof.Proof.Gen.KernelIdeal.Value
import proofs.«156784_j90890097918587_1_alg».proof.Proof.BlockValue
import proofs.«156784_j90890097918587_1_alg».proof.Proof.BlockReads

noncomputable section

namespace Cert.KernelIdeal.DualGate

open Cert.KernelIdeal Cert.KernelIdeal.Gen Idealize.ShloMosaic Idealize.ShloMosaic.TcCoe Idealize.SL.Sem
open Idealize.ShloMosaic.ValueIdx Cert.DualGate
open Idealize.ShloMosaic.Pipeline (Dat)

variable (m : (ℓ : Loc nD τ sig) → Buf (Elt Ideal) ℓ) (ρ : Dev nD → PrngReg)

theorem zeroOffsets : (![0, 0] : Fin 2 → Nat) = fun _ => 0 := funext fun a => by fin_cases a <;> rfl

/-- What the body leaves in the output block, as a function of the six input blocks: the gated sum over the block's rows. -/
theorem body_value (x0 x1 : Vec Ideal S4096x64 .f32) (x2 : Vec Ideal S64x64 .f32) (x3 : Vec Ideal S1x64 .f32)
    (x4 : Vec Ideal S64x64 .f32) (x5 : Vec Ideal S1x64 .f32) :
    out0_6 (F := Ideal) x0 x1 x2 x3 x4 x5
      = gateArr (R := 4096) x0 x1 x2 (fun i => x3 (ix2 (0 : Fin 1) (i 0))) x4 (fun i => x5 (ix2 (0 : Fin 1) (i 0))) := by
  unfold out0_6
  rw [View.canon_unit_zero zeroOffsets]
  simp only [View.ld_unit_zero (S := S4096x64) zeroOffsets, View.ld_unit_zero (S := S64x64) zeroOffsets,
    View.ld_unit_zero (S := S1x64) zeroOffsets]
  funext j
  obtain ⟨p, q, rfl⟩ : ∃ (p : Fin 4096) (q : Fin 64), j = ix2 p q := ⟨j 0, j 1, eq_ix2 j⟩
  exact stored_apply x0 x1 x2 x4 x3 x5 p q

/-- BLOCK t OF A GATED SUM.  For any arrays and any blocks that are their parts at point t — the blocks of h and x rows
    4096·t … of their arrays, the weight and bias blocks their whole arrays —, the gated sum of the blocks is point t's
    block of the gated sum of the arrays.  The arrays here are variables: the statement is about the dense stage alone. -/
theorem block_of_gated (t : Fin cfg0.N)
    (A0 A1 : S65536x64.Idx → EReal) (W1 W2 : S64x64.Idx → EReal) (B1 B2 : S1x64.Idx → EReal)
    (b0 b1 : S4096x64.Idx → EReal) (w1 w2 : S64x64.Idx → EReal) (r1 r2 : S1x64.Idx → EReal)
    (h0 : ∀ (y : S4096x64.Idx) (i : S65536x64.Idx), (i 0).val = t.val * 4096 + (y 0).val → (i 1).val = (y 1).val → b0 y = A0 i)
    (h1 : ∀ (y : S4096x64.Idx) (i : S65536x64.Idx), (i 0).val = t.val * 4096 + (y 0).val → (i 1).val = (y 1).val → b1 y = A1 i)
    (hw1 : ∀ y : S64x64.Idx, w1 y = W1 y) (hw2 : ∀ y : S64x64.Idx, w2 y = W2 y)
    (hr1 : ∀ y : S1x64.Idx, r1 y = B1 y) (hr2 : ∀ y : S1x64.Idx, r2 y = B2 y) :
    (cfg0.win 6).cut (grid0.coords t)
        (gateArr (R := 4096) b0 b1 w1 (fun i => r1 (ix2 (0 : Fin 1) (i 0))) w2 (fun i => r2 (ix2 (0 : Fin 1) (i 0))))
      = ((cfg0.win 6).blk t).view.read (Elt Ideal)
          (gateArr (R := 65536) A0 A1 W1 (fun i => B1 (ix2 (0 : Fin 1) (i 0))) W2 (fun i => B2 (ix2 (0 : Fin 1) (i 0)))) := by
  obtain ⟨-, -, -, -, -, -, -, -, -, -, -, -, e60, e61⟩ := index_facts t
  show (gateArr (R := 4096) b0 b1 w1 (fun i => r1 (ix2 (0 : Fin 1) (i 0))) w2 (fun i => r2 (ix2 (0 : Fin 1) (i 0))) : S4096x64.Idx → EReal)
      = fun j : S4096x64.Idx => gateArr (R := 65536) A0 A1 W1 (fun i => B1 (ix2 (0 : Fin 1) (i 0))) W2 (fun i => B2 (ix2 (0 : Fin 1) (i 0)))
          (((cfg0.win 6).blk t).view.emb j)
  funext j
  obtain ⟨p, q, rfl⟩ : ∃ (p : Fin 4096) (q : Fin 64), j = ix2 p q := ⟨j 0, j 1, eq_ix2 j⟩
  have hP : ((((cfg0.win 6).blk t).view.emb (ix2 p q)) 0).val = t.val * 4096 + p.val := by
    show win0_6.index t (0 : Fin 2) * 4096 + 1 * p.val = _
    rw [e60]; omega
  have hQ : (((cfg0.win 6).blk t).view.emb (ix2 p q)) 1 = q := Fin.ext (by
    show win0_6.index t (1 : Fin 2) * 64 + 1 * q.val = q.val
    rw [e61]; omega)
  show gate (R := 4096) b0 b1 w1 (fun i => r1 (ix2 (0 : Fin 1) (i 0))) w2 (fun i => r2 (ix2 (0 : Fin 1) (i 0))) p q
      = gate (R := 65536) A0 A1 W1 (fun i => B1 (ix2 (0 : Fin 1) (i 0))) W2 (fun i => B2 (ix2 (0 : Fin 1) (i 0)))
        ((((cfg0.win 6).blk t).view.emb (ix2 p q)) 0) ((((cfg0.win 6).blk t).view.emb (ix2 p q)) 1)
  rw [hQ]
  exact gate_congr (fun l => h0 (ix2 p l) (ix2 _ l) hP rfl) (fun l => h1 (ix2 p l) (ix2 _ l) hP rfl)
    (fun l => hw1 (ix2 l q)) (fun l => hw2 (ix2 l q)) (hr1 (ix2 (0 : Fin 1) q)) (hr2 (ix2 (0 : Fin 1) q))

/-- THE RESULT ARRAY'S FUNCTION: the gated sum of the arrays as the region finds them. -/
def dense (c : Dev nD) : S65536x64.Idx → EReal :=
  gateArr (R := 65536) (V m c main_v41) (V m c main_arg0) (V m c main_arg2) (fun i => V m c main_v42 (ix2 (0 : Fin 1) (i 0)))
    (V m c main_arg4) (fun i => V m c main_v43 (ix2 (0 : Fin 1) (i 0)))

/-- WHAT POINT t WRITES BACK is block t of the result array's function. -/
theorem flushed_eq (c : Dev nD) (t : Fin cfg0.N) :
    (dats m 0 c).flushed 6 t = ((cfg0.win 6).blk t).view.read (Elt Ideal) (dense m c) := by
  show (cfg0.win 6).cut (grid0.coords t) ((dats m 0 c).after 6 t) = _
  rw [after0_6, body_value]
  unfold dense
  exact block_of_gated t (V m c main_v41) (V m c main_arg0) (V m c main_arg2) (V m c main_arg4) (V m c main_v42) (V m c main_v43)
    (iblk m c 0 t) (iblk m c 1 t) (iblk m c 2 t) (iblk m c 4 t) (iblk m c 3 t) (iblk m c 5 t)
    (read_h m c t) (read_x m c t) (read_W1 m c t) (read_W2 m c t) (read_b1 m c t) (read_b2 m c t)

/-- An index of the result array is in point t's block iff each coordinate is in the block's range on its axis. -/
theorem mem_block (t : Fin cfg0.N) (i : S65536x64.Idx) :
    i ∈ ((cfg0.win 6).blk t).view.set ↔ ∀ a : Fin 2, win0_6.index t a * S4096x64.size a ≤ (i a).val ∧ (i a).val < win0_6.index t a * S4096x64.size a + S4096x64.size a := by
  show i ∈ ((View.whole main_v44).slice (win0_6.rect t)).set ↔ _
  rw [View.set_slice_whole, Rect.mem_set_unit]
  exact Iff.rfl

/-- Every index of the result array is in the block of the point its row falls to. -/
theorem covered (i : S65536x64.Idx) : ∃ t : Fin cfg0.N, (cfg0.win 6).flush t = true ∧ i ∈ ((cfg0.win 6).blk t).view.set := by
  have hi0 : (i 0).val < 65536 := (i 0).isLt
  have hi1 : (i 1).val < 64 := (i 1).isLt
  have hN : cfg0.N = 16 := N_0
  have hlt : (i 0).val / 4096 < cfg0.N := by rw [hN]; omega
  obtain ⟨-, -, -, -, -, -, -, -, -, -, -, -, e60, e61⟩ := index_facts ⟨(i 0).val / 4096, hlt⟩
  have e60' : win0_6.index ⟨(i 0).val / 4096, hlt⟩ (0 : Fin 2) = (i 0).val / 4096 := e60
  refine ⟨⟨(i 0).val / 4096, hlt⟩, flush0_6 _, ?_⟩
  rw [mem_block]
  intro a
  match a with
  | ⟨0, _⟩ =>
    show win0_6.index ⟨(i 0).val / 4096, hlt⟩ (0 : Fin 2) * 4096 ≤ (i 0).val ∧ (i 0).val < win0_6.index ⟨(i 0).val / 4096, hlt⟩ (0 : Fin 2) * 4096 + 4096
    rw [e60']; omega
  | ⟨1, _⟩ =>
    show win0_6.index ⟨(i 0).val / 4096, hlt⟩ (1 : Fin 2) * 64 ≤ (i 1).val ∧ (i 1).val < win0_6.index ⟨(i 0).val / 4096, hlt⟩ (1 : Fin 2) * 64 + 64
    rw [e61]; omega

/-- THE RESULT ARRAY after the run. -/
theorem final (c : Dev nD) : (dats m 0 c).arrAt 6 cfg0.N = dense m c :=
  (dats m 0 c).arrAt_eq_of_cover 6 (dense m c) (fun t _ => flushed_eq m c t) covered

/-- The kernel's run with its result named: the gated sum of the arrays the region finds, the arguments unchanged. -/
theorem run : θ_run defs (onTc (τ := τ) (main (F := Ideal))) ⟨m, fun _ => 0, ρ⟩ fun r => ∀ c : Dev nD,
      r.2.mem ((c : Thread nD τ).loc main_v44) = dense m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.DualGate

end
-- ==== Proof.Aggregate.lean ====
/-
  The aggregation both programs compute before the dense stage, as one function of the node features x and the edge list.

  Each edge (s, d) carries the weight deg(s)^(-1/2) · deg(d)^(-1/2), where deg counts the edges arriving at a node and a node
  without arriving edges has weight factor 0; the aggregated features of node d are the sum over the edges arriving at d
  of x(s) scaled by the edge's weight.  The stages below are the host operations in order (an index below zero is wrapped
  by the table's height before it is used as a row).  The kernel's program spells this with its own shape and dimension
  records and the reference with its own; stage by stage the two spellings are the same function.
-/
import proofs.«156784_j90890097918587_1_alg».proof.Proof.Gen.KernelIdeal
import proofs.«156784_j90890097918587_1_alg».proof.Proof.RefRead

noncomputable section

namespace Cert.KernelIdeal.DualGate

open Cert.KernelIdeal Cert.KernelIdeal.Facts₀ Idealize.ShloMosaic

/- Every stage is stated for any values of the floats: nothing below depends on what a float operation is, only on
   which operations are applied to what. -/
variable {F : FTy → Type} [FloatOps F]

/-- Rows 0 and 1 of the edge list as vectors of node numbers: the sources and the destinations (the vector's shape spelt
    as the shape of the buffer the kernel's program keeps it in). -/
def edgeSrc (ei : S2x1048576.Idx → BitVec 32) : S1048576.Idx → BitVec 32 := fun i =>
  shapeCast main_v1.ty.shape (extractStridedSlice S1x1048576 ![0, 0] ei slices_S2x1048576_S1x1048576_0_0) shapeCasts_S1x1048576_S1048576 i
def edgeDst (ei : S2x1048576.Idx → BitVec 32) : S1048576.Idx → BitVec 32 := fun i =>
  shapeCast main_v3.ty.shape (extractStridedSlice S1x1048576 ![1, 0] ei slices_S2x1048576_S1x1048576_1_0) shapeCasts_S1x1048576_S1048576 i

/-- Node numbers as a column of row indices into a table of 65536 rows, a negative one wrapped by 65536. -/
def wrapped (v : S1048576.Idx → BitVec 32) : S1048576x1.Idx → BitVec 32 :=
  broadcastInDim S1048576x1 ![0] bcast_S1048576_S1048576x1_0
    (select (cmpi CmpIPredicate.slt v (broadcastInDim S1048576 ![] bcast_S_S1048576 (constantI S_ 32 0#32)))
      (addi v (broadcastInDim S1048576 ![] bcast_S_S1048576 (constantI S_ 32 65536#32))) v)

/-- The number of edges arriving at each node: ones added at the destinations. -/
def degree (ei : S2x1048576.Idx → BitVec 32) : FVec F S65536 .f32 :=
  Host.scatterAdd (F := F) scatter_S65536_S1048576x1_S1048576_n_0_0_1
    (broadcastInDim S65536 ![] bcast_S_S65536 (constant (F := F) S_ .f32 0x00000000#32))
    (broadcastInDim S1048576x1 ![0] bcast_S1048576_S1048576x1_0 (edgeDst ei))
    (broadcastInDim S1048576 ![] bcast_S_S1048576 (constant (F := F) S_ .f32 0x3F800000#32))

/-- deg^(-1/2) where the degree is positive (the degree clamped below by one inside the root), zero elsewhere. -/
def invSqrtDeg (ei : S2x1048576.Idx → BitVec 32) : FVec F S65536 .f32 :=
  select (cmpf .ogt (degree ei) (broadcastInDim S65536 ![] bcast_S_S65536 (constant (F := F) S_ .f32 0x00000000#32)))
    (Host.rsqrt (maximumf (degree ei) (broadcastInDim S65536 ![] bcast_S_S65536 (constant (F := F) S_ .f32 0x3F800000#32))))
    (broadcastInDim S65536 ![] bcast_S_S65536 (id (constant (F := F) S_ .f32 0x00000000#32)))

/-- An edge's weight: the factor of its source times the factor of its destination. -/
def edgeWeight (ei : S2x1048576.Idx → BitVec 32) : FVec F S1048576 .f32 :=
  mulf (F := F) (φ := .f32) (Host.gather gather_S65536_S1048576x1_S1048576_n_0_n_n_0_1_1 (invSqrtDeg ei) (wrapped (edgeSrc ei)))
    (Host.gather gather_S65536_S1048576x1_S1048576_n_0_n_n_0_1_1 (invSqrtDeg ei) (wrapped (edgeDst ei)))

/-- An edge's message: its source's feature row scaled by its weight. -/
def messages (x : FVec F S65536x64 .f32) (ei : S2x1048576.Idx → BitVec 32) : FVec F S1048576x64 .f32 :=
  mulf (F := F) (φ := .f32) (Host.gather gather_S65536x64_S1048576x1_S1048576x64_1_0_n_n_0_1_164 x (wrapped (edgeSrc ei)))
    (broadcastInDim S1048576x64 ![0, 1] bcast_S1048576x1_S1048576x64_0_1
      (broadcastInDim S1048576x1 ![0] bcast_S1048576_S1048576x1_0 (edgeWeight ei)))

/-- THE AGGREGATED FEATURES: the messages added at their destinations. -/
def aggregate (x : FVec F S65536x64 .f32) (ei : S2x1048576.Idx → BitVec 32) : FVec F S65536x64 .f32 :=
  Host.scatterAdd (F := F) scatter_S65536x64_S1048576x1_S1048576x64_1_0_0_1
    (broadcastInDim S65536x64 ![] bcast_S_S65536x64 (constant (F := F) S_ .f32 0x00000000#32))
    (broadcastInDim S1048576x1 ![0] bcast_S1048576_S1048576x1_0 (edgeDst ei))
    (messages x ei)

/-! ## Stage by stage, the reference's spelling of the same functions

Each stage is compared one level deep: the reference's stage is opened down to the previous stage, the previous stage's
equation is used, and what is left differs only in which program's copy of a shape or of a dimension record is named. -/

section Reference

open Cert.ReferenceIdeal.ReadP

variable (x : FVec F S65536x64 .f32) (ei : S2x1048576.Idx → BitVec 32)

set_option maxHeartbeats 400000 in
theorem edgeSrc_ref : edgeSrc ei = val_main_v1 (F := F) ei := rfl
set_option maxHeartbeats 400000 in
theorem edgeDst_ref : edgeDst ei = val_main_v3 (F := F) ei := rfl

set_option maxHeartbeats 400000 in
theorem wrapped_src_ref : wrapped (edgeSrc ei) = val_main_v19 (F := F) ei := by
  unfold wrapped val_main_v19 val_main_v18 val_main_v17 val_main_v16 val_main_v15 val_main_v14 val_main_c val_main_c_4
  rw [edgeSrc_ref (F := F)]
  first | done | rfl

set_option maxHeartbeats 400000 in
theorem wrapped_src_ref' : wrapped (edgeSrc ei) = val_main_v34 (F := F) ei := by
  unfold wrapped val_main_v34 val_main_v33 val_main_v32 val_main_v31 val_main_v30 val_main_v29 val_main_c_7 val_main_c_8
  rw [edgeSrc_ref (F := F)]
  first | done | rfl

set_option maxHeartbeats 400000 in
theorem wrapped_dst_ref : wrapped (edgeDst ei) = val_main_v26 (F := F) ei := by
  unfold wrapped val_main_v26 val_main_v25 val_main_v24 val_main_v23 val_main_v22 val_main_v21 val_main_c_5 val_main_c_6
  rw [edgeDst_ref (F := F)]
  first | done | rfl

set_option maxHeartbeats 400000 in
theorem degree_ref : degree ei = val_main_v7 (F := F) ei := by
  unfold degree val_main_v7 val_main_v6 val_main_v5 val_main_v4 val_main_cst val_main_cst_0
  rw [edgeDst_ref (F := F)]
  first | done | rfl

set_option maxHeartbeats 400000 in
theorem invSqrtDeg_ref : invSqrtDeg ei = val_main_v13 (F := F) ei := by
  unfold invSqrtDeg val_main_v13 val_main_v12 val_main_v11 val_main_v10 val_main_v9 val_main_v8 val_main_call0_v1 val_main_call0_v0
    val_main_cst_1 val_main_cst_2 val_main_cst_3
  rw [degree_ref]
  first | done | rfl

set_option maxHeartbeats 400000 in
theorem edgeWeight_ref : edgeWeight ei = val_main_v28 (F := F) ei := by
  unfold edgeWeight val_main_v28 val_main_v27 val_main_v20
  rw [invSqrtDeg_ref, wrapped_src_ref (F := F), wrapped_dst_ref (F := F)]
  first | done | rfl

set_option maxHeartbeats 400000 in
theorem messages_ref : messages x ei = val_main_v38 (F := F) x ei := by
  unfold messages val_main_v38 val_main_v37 val_main_v36 val_main_v35
  rw [edgeWeight_ref, wrapped_src_ref' (F := F)]
  first | done | rfl

set_option maxHeartbeats 400000 in
/-- The kernel's spelling of the aggregation is the reference's. -/
theorem aggregate_ref : aggregate x ei = val_main_v41 (F := F) x ei := by
  unfold aggregate val_main_v41 val_main_v40 val_main_v39 val_main_cst_9
  rw [messages_ref, edgeDst_ref (F := F)]
  first | done | rfl

end Reference

end Cert.KernelIdeal.DualGate

end
-- ==== Proof.HostPrefix.lean ====
/-
  What the kernel's host lines hand to the dense stage.

  Before its one region the kernel's program computes the aggregated features h (Aggregate: degree by a scatter-add of
  ones, inverse square roots, two gathers, the edge weights, the gathered rows scaled, a scatter-add into zeros), and
  recasts each bias vector as a one-row matrix.  So the array the region finds in h's buffer is the aggregation of x and
  the edge list, and each bias buffer is the bias vector recast.
-/
import proofs.«156784_j90890097918587_1_alg».proof.Proof.Gen.KernelIdeal.Frame
import proofs.«156784_j90890097918587_1_alg».proof.Proof.Aggregate
import Idealize.ShloMosaic.Lib.StableHlo.Run

noncomputable section

namespace Cert.KernelIdeal.DualGate

open Cert.KernelIdeal Cert.KernelIdeal.Gen Idealize.ShloMosaic Idealize.ShloMosaic.TcCoe Idealize.SL.Sem Idealize.ShloMosaic.StableHlo

/- The facts below hold for any values of the floats and are stated so: with the float operations left unread, comparing
   two spellings of the host lines never opens an operation. -/
variable {F : FTy → Type} [FloatOps F]
variable (m : (ℓ : Loc nD τ sig) → Buf (Elt F) ℓ)

/-! The operations of the function the program calls for its `where` move contents between a value's type and its
buffer's type; the two types are the same, so each such move is the identity, whichever proofs of the type equation the
reference carries. -/
theorem toBuf_v13 (h1 h2 h3) (v : FVec F S65536 .f32) :
    (TRef.of (sig := sig) (T := ⟨S65536, .f32⟩) main_v13 h1 h2 h3).toBuf (Val := Elt F) v = v := rfl
theorem ofBuf_v9 (h1 h2 h3) (v : S65536.Idx → BitVec 1) :
    (TRef.of (sig := sig) (T := ⟨S65536, .i1⟩) main_v9 h1 h2 h3).ofBuf (Val := Elt F) v = v := rfl
theorem ofBuf_v12 (h1 h2 h3) (v : FVec F S65536 .f32) :
    (TRef.of (sig := sig) (T := ⟨S65536, .f32⟩) main_v12 h1 h2 h3).ofBuf (Val := Elt F) v = v := rfl
theorem ofBuf_call0_v1 (h1 h2 h3) (v : FVec F S65536 .f32) :
    (TRef.of (sig := sig) (T := ⟨S65536, .f32⟩) main_call0_v1 h1 h2 h3).ofBuf (Val := Elt F) v = v := rfl
theorem toBuf_call0_v1 (h1 h2 h3) (v : FVec F S65536 .f32) :
    (TRef.of (sig := sig) (T := ⟨S65536, .f32⟩) main_call0_v1 h1 h2 h3).toBuf (Val := Elt F) v = v := rfl
theorem ofBuf_call0_v0 (h1 h2 h3) (v : FVec F S_ .f32) :
    (TRef.of (sig := sig) (T := ⟨S_, .f32⟩) main_call0_v0 h1 h2 h3).ofBuf (Val := Elt F) v = v := rfl
theorem toBuf_call0_v0 (h1 h2 h3) (v : FVec F S_ .f32) :
    (TRef.of (sig := sig) (T := ⟨S_, .f32⟩) main_call0_v0 h1 h2 h3).toBuf (Val := Elt F) v = v := rfl
theorem ofBuf_cst_3 (h1 h2 h3) (v : FVec F S_ .f32) :
    (TRef.of (sig := sig) (T := ⟨S_, .f32⟩) main_cst_3 h1 h2 h3).ofBuf (Val := Elt F) v = v := rfl

set_option maxRecDepth 8192 in
set_option maxHeartbeats 4000000 in
/-- The aggregated features the region reads: the aggregation of the launch contents of x and of the edge list. -/
theorem V_aggregated (c : Dev nD) :
    (V m c main_v41 : FVec F S65536x64 .f32)
      = aggregate (m ((c : Thread nD τ).loc main_arg0)) (m ((c : Thread nD τ).loc main_arg1)) := by
  dsimp only [Gen.V]
  simp only [Gen.hostOps0, Gen.hostOps0_1, Gen.hostOps0_2, List.flatten_cons, List.flatten_nil, List.append_nil, List.cons_append,
    List.nil_append]
  after_results_simp
  simp only [toBuf_v13, ofBuf_v9, ofBuf_v12, ofBuf_call0_v1, toBuf_call0_v1, ofBuf_call0_v0, toBuf_call0_v0, ofBuf_cst_3]
  unfold aggregate messages edgeWeight invSqrtDeg degree wrapped edgeSrc edgeDst
  rfl

set_option maxRecDepth 8192 in
set_option maxHeartbeats 4000000 in
/-- The first bias as the region reads it: the vector recast to one row. -/
theorem V_bias1 (c : Dev nD) :
    (V m c main_v42 : FVec F S1x64 .f32) = shapeCast S1x64 (m ((c : Thread nD τ).loc main_arg3) : FVec F S64 .f32) Facts₀.shapeCasts_S64_S1x64 := by
  dsimp only [Gen.V]
  simp only [Gen.hostOps0, Gen.hostOps0_1, Gen.hostOps0_2, List.flatten_cons, List.flatten_nil, List.append_nil, List.cons_append,
    List.nil_append]
  after_results_simp
  rfl

set_option maxRecDepth 8192 in
set_option maxHeartbeats 4000000 in
/-- The second bias as the region reads it: the vector recast to one row. -/
theorem V_bias2 (c : Dev nD) :
    (V m c main_v43 : FVec F S1x64 .f32) = shapeCast S1x64 (m ((c : Thread nD τ).loc main_arg5) : FVec F S64 .f32) Facts₀.shapeCasts_S64_S1x64 := by
  dsimp only [Gen.V]
  simp only [Gen.hostOps0, Gen.hostOps0_1, Gen.hostOps0_2, List.flatten_cons, List.flatten_nil, List.append_nil, List.cons_append,
    List.nil_append]
  after_results_simp
  rfl

end Cert.KernelIdeal.DualGate

end
-- ==== Proof.Bridge.lean ====
/-
  The kernel's result array in terms of the launch contents.

  The region finds x and the weight matrices as launched, h as the aggregation of x and the edge list (which, stage by
  stage, is the reference's own aggregation term), and each bias as its vector recast to one row; a one-row matrix read
  along its row is the vector.  So the result array is the gated sum of the reference's aggregation and the arguments.
-/
import proofs.«156784_j90890097918587_1_alg».proof.Proof.FinalArray
import proofs.«156784_j90890097918587_1_alg».proof.Proof.HostPrefix
import Idealize.ShloMosaic.Lib.ValueLayout

noncomputable section

namespace Cert.KernelIdeal.DualGate

open Cert.KernelIdeal Cert.KernelIdeal.Gen Idealize.ShloMosaic Idealize.ShloMosaic.TcCoe Idealize.SL.Sem
open Idealize.ShloMosaic.ValueIdx Cert.DualGate

variable (m : (ℓ : Loc nD τ sig) → Buf (Elt Ideal) ℓ)

/-- A bias vector recast to one row and read along that row is the vector. -/
theorem biasRow_read (b : FVec Ideal S64 .f32) :
    (fun i : (⟨1, ![64]⟩ : Shape).Idx => shapeCast S1x64 b Facts₀.shapeCasts_S64_S1x64 (ix2 (0 : Fin 1) (i 0))) = b :=
  funext fun i => (shapeCast_a_1a_apply b Facts₀.shapeCasts_S64_S1x64 0 (i 0)).trans (congrArg b (eq_ix1 i).symm)

/-- THE KERNEL'S RESULT ARRAY: the gated sum of the reference's aggregation term and the arguments as launched. -/
theorem dense_eq (c : Dev nD) :
    dense m c = gateArr (R := 65536)
      (Cert.ReferenceIdeal.ReadP.val_main_v41 (F := Ideal) (m ((c : Thread nD τ).loc main_arg0)) (m ((c : Thread nD τ).loc main_arg1)))
      (m ((c : Thread nD τ).loc main_arg0)) (m ((c : Thread nD τ).loc main_arg2)) (m ((c : Thread nD τ).loc main_arg3))
      (m ((c : Thread nD τ).loc main_arg4)) (m ((c : Thread nD τ).loc main_arg5)) := by
  unfold dense
  rw [V_aggregated (F := Ideal) m c, aggregate_ref, V_bias1 (F := Ideal) m c, V_bias2 (F := Ideal) m c, biasRow_read, biasRow_read,
    V_main_arg0, V_main_arg2, V_main_arg4]

end Cert.KernelIdeal.DualGate

end
-- ==== Proof.lean ====
/- The certificate's claims, assembled.

   The kernel's program and the reference compute the same aggregation h of the node features over the edge list by the
   same host operations; the kernel then applies the dense stage — two 64×64 transforms of h and of x·h, each with its
   bias and a leaky rectifier, added — block of rows by block of rows, and the reference applies it to the whole arrays.
   On the extended reals the roundings into the matrix unit are the identity and a matrix product is the sum over the
   contraction index on both sides, so both results are the one function GateSpec names, index by index; no law that
   needs finiteness is used.  The three frames are the generated ones (the reference's from its run); nothing was
   rewritten by the idealization, so its conjunct is trivial. -/
import proofs.«156784_j90890097918587_1_alg».proof.Defs
import proofs.«156784_j90890097918587_1_alg».proof.Proof.Gen.Kernel
import proofs.«156784_j90890097918587_1_alg».proof.Proof.Gen.Kernel.Skeleton
import proofs.«156784_j90890097918587_1_alg».proof.Proof.Gen.Kernel.Launch
import proofs.«156784_j90890097918587_1_alg».proof.Proof.Gen.Kernel.Points
import proofs.«156784_j90890097918587_1_alg».proof.Proof.Gen.Kernel.Frame
import proofs.«156784_j90890097918587_1_alg».proof.Proof.Gen.KernelIdeal
import proofs.«156784_j90890097918587_1_alg».proof.Proof.Gen.KernelIdeal.Skeleton
import proofs.«156784_j90890097918587_1_alg».proof.Proof.Gen.KernelIdeal.Launch
import proofs.«156784_j90890097918587_1_alg».proof.Proof.Gen.KernelIdeal.Points
import proofs.«156784_j90890097918587_1_alg».proof.Proof.Gen.KernelIdeal.Frame
import proofs.«156784_j90890097918587_1_alg».proof.Proof.Gen.ReferenceIdeal
import proofs.«156784_j90890097918587_1_alg».proof.Proof.Gen.Pre_finite_inputs
import proofs.«156784_j90890097918587_1_alg».proof.Proof.Gen.KernelIdeal.Value
import proofs.«156784_j90890097918587_1_alg».proof.Proof.RefRun
import proofs.«156784_j90890097918587_1_alg».proof.Proof.RefRead
import proofs.«156784_j90890097918587_1_alg».proof.Proof.RefValue
import proofs.«156784_j90890097918587_1_alg».proof.Proof.Bridge
import Idealize.ShloMosaic.Adequacy
import Idealize.ShloMosaic.Init

noncomputable section

namespace Cert.Proof

open Idealize.ShloMosaic Idealize.SL.Sem Cert.Kernel

/-- The printed kernel runs and leaves its arguments as launched: the generated frame. -/
theorem frame_kernel : Cert.frame_Kernel := fun m ρ _ => Cert.Kernel.Gen.frame m ρ

/-- The idealized kernel likewise. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories agreeing on the arguments both programs end with the gated sum of the aggregation of x over the edge
    list, of x, and of the weights and biases: the kernel's block by block (FinalArray, Bridge), the reference's by
    reading its run at an index (RefValue). -/
theorem algebraic : Cert.algebraic_KernelIdeal_ReferenceIdeal := by
  intro m ρ m' ρ' _ hagree
  refine ⟨fun c => Cert.KernelIdeal.DualGate.dense m c, Cert.KernelIdeal.DualGate.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5⟩ := hagree c
  beta_reduce
  rw [Cert.ReferenceIdeal.ReadP.val_main_v61_eq, Cert.ReferenceIdeal.DualGate.result_eq, Cert.KernelIdeal.DualGate.dense_eq,
    h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
